-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S1x128 : S_.BroadcastsInDim S1x128 (![] : Fin 0 → Fin S1x128.rank)
  reducesTo_S1x128_S_d0_1 : S1x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x16384 : S_.BroadcastsInDim S4096x16384 (![] : Fin 0 → Fin S4096x16384.rank)
  reducesTo_S4096x16384_S_d0_1 : S4096x16384.ReducesTo [0, 1] S_

variable [Facts]

def fn_part1 {F : FTy → Type} [FloatOps F] (main_arg4 : FVec F S4096x16384 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  main_v23

def fn {F : FTy → Type} [FloatOps F] (main_arg0 : FVec F S4096x256 .f32) (main_arg1 : FVec F S16384x256 .f32) (main_arg2 : FVec F S1x128 .f32) (main_arg3 : FVec F S4096x4096 .f32) (main_arg4 : FVec F S4096x16384 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S1x128, .f32⟩
  | .hbm, ⟨3, _⟩ => ⟨S4096x4096, .f32⟩
  | .hbm, ⟨4, _⟩ => ⟨S4096x16384, .f32⟩
  | .hbm, ⟨5, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S4096x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_2 : BitVec 32 := 0#32
  let v10 : BitVec 1 := Scalar.cmpi .ne v9 c0_i32_2
  v10

def k0_cond2 (i : grid0.Coords) : BitVec 1 :=
  let arg1 : BitVec 32 := BitVec.ofNat 32 (i 1).val
  let c0_i32_3 : BitVec 32 := 0#32
  let v11 : BitVec 1 := Scalar.cmpi .ne arg1 c0_i32_3
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  h_S1024x256 : 0 < S1024x256.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x2048_S1024x256_S2048x256_0_0_1_1_n_n_wf : DotDims.WF S1024x2048 S1024x256 S2048x256 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x16384.size a
  hwx0_0 : ∀ i : grid0.Coords, EltTy.bits .f32 = 32 ∨ (Rect.block (s := S4096x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .f32 = 32 ∨ (Rect.block (s := S16384x256) S2048x256.size (cc0_transform_3 i) (hinb0_3 i)).WholeWords (EltTy.packing .f32)

variable [Facts₀]

def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf

abbrev win0_0 : Pipeline.Window sig grid0 :=
  Pipeline.Window.ofSpec (Memref.whole main_arg4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S16384x256 : Shape := ⟨2, ![16384, 256]⟩
abbrev S1x128 : Shape := ⟨2, ![1, 128]⟩
abbrev S4096x4096 : Shape := ⟨2, ![4096, 4096]⟩
abbrev S4096x16384 : Shape := ⟨2, ![4096, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S1x128, .f32⟩
  | .hbm, ⟨3, _⟩ => ⟨S4096x4096, .f32⟩
  | .hbm, ⟨4, _⟩ => ⟨S4096x16384, .f32⟩
  | .hbm, ⟨5, _⟩ => ⟨S16384x256, .f32⟩
  | .hbm, ⟨6, _⟩ => ⟨S16384x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩

abbrev nD : Nat := 1
abbrev τ : Topo := Topo.v7x

variable {F : FTy → Type} [FloatOps F]

class Facts₀ : Prop where
  dot_S4096x16384_S4096x256_S16384x256_0_0_1_1_n_n_wf : DotDims.WF S4096x16384 S4096x256 S16384x256 [0] [0] [1] [1] [] []

variable [Facts₀]

def dot_S4096x16384_S4096x256_S16384x256_0_0_1_1_n_n : DotDims S4096x16384 S4096x256 S16384x256 where
  lhsContracting := [0]
  rhsContracting := [0]
  lhsNonContracting := [1]
  rhsNonContracting := [1]
  lhsBatch := []
  rhsBatch := []
  wf := dot_S4096x16384_S4096x256_S16384x256_0_0_1_1_n_n_wf

class Facts : Prop extends Facts₀ where

variable [Facts]
-- ==== Proof.Bits.Steps.lean ====
/-
  One grid step of the pooling kernel `e_out = e_in + conEdᵀ · v_in`, on any whole staging buffers.

  The grid is (8, 4): point `t = 4·e + v` works on edge tile `e` (2048 rows of the result) and vertex tile `v`
  (1024 of the 4096 contracted rows). Every step forms the partial product of its [1024, 2048] tile of `conEd`
  (contracted over its rows) with rows `1024·v … 1024·v + 1023` of `v_in`. The step then either
    * is the FIRST of its edge tile (`v = 0`): the result block becomes `e_in`'s block plus the partial product, or
    * is a LATER one (`v ≠ 0`): the partial product is added to what the result block already holds.
  Exactly one of the two happens at each point; which one is decided over the 32 points in closed form
  (`first_iff`, `later_iff`). Each kind of step is run once, symbolically: the inputs' buffers are handed back as
  they were and the result's buffer ends with one store that covers it (`stepFirst`, `stepLater`).
-/
import proofs.«116933_j1529008357761_2_alg».proof.Proof.Gen.Kernel.Frame
import proofs.«116933_j1529008357761_2_alg».proof.Proof.Gen.Kernel.Skeleton

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of step a point is -/

/-- A point is the first of its edge tile exactly when its vertex coordinate is zero: `t ≡ 0 (mod 4)`. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- It is a later one exactly otherwise. -/
theorem later_iff : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-! ## The two steps -/

set_option maxHeartbeats 1000000 in
/-- A FIRST step. With the `conEd` tile, all of `v_in` and the `e_in` block in their buffers and anything in the
    result's, the body runs to its end, hands the three inputs back unchanged and leaves the result's buffer with
    the listed stores written (one store, of the whole block). -/
noncomputable def stepFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) :
    { L : List (View.Piece (Elt F) S2048x256 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) a3 fullShare d)
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__pool_kernel i a0 h0 a1 h1 a2 h2 a3 h3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, Hk⟩
    obtain rfl := h0.eq_unread hf0; obtain rfl := h1.eq_unread hf1; obtain rfl := h2.eq_unread hf2
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

set_option maxHeartbeats 1000000 in
/-- A LATER step. The same, but the result's buffer holds the running block `acc`, which the body reads before it
    overwrites it. -/
noncomputable def stepLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) :
    { L : List (View.Piece (Elt F) S2048x256 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare acc
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__pool_kernel i a0 h0 a1 h1 a2 h2 a3 h3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, Hk⟩
    obtain rfl := h0.eq_unread hf0; obtain rfl := h1.eq_unread hf1; obtain rfl := h2.eq_unread hf2; obtain rfl := h3.eq_unread hf3
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.Kernel.Pool

end
-- ==== Proof.Bits.Carry.lean ====
/-
  The pooling kernel `e_out = e_in + conEdᵀ · v_in`, point by point: what the result's staging buffer holds after
  each grid point, and from that the whole run.

  The grid is walked in order `t = 4·e + v`. The result window's block index is `(e, 0)`: it does not move while
  `v` runs through the four vertex tiles, so its staging buffer is carried from `t` to `t + 1` within an edge
  tile and written back only at `v = 3`. Hence the buffer's contents after point `t` are defined by recursion on
  `t` (`carried`): at `v = 0` what a first step leaves from the point's input blocks, at `v ≠ 0` what a later
  step leaves from the input blocks and the contents after `t - 1`. With this as the proof data of the pipeline,
  every point's body obligation is one of the two symbolic steps, and the launch theorem gives the run: it
  terminates, nothing faults, every array of the pipeline ends at what the proof data says and every other
  buffer as it was. In particular the five argument arrays are unchanged.
-/
import proofs.«116933_j1529008357761_2_alg».proof.Proof.Bits.Steps

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers in use at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)

/-- A view of the result block's shape, through which a step's stores are read back as a block (any view of the
    shape gives the same block, the stores covering it). -/
abbrev VO : View sig .tc .vmem S2048x256 .f32 := (Memref.whole cc0_stg3_0 : Memref sig .tc .vmem S2048x256 .f32).view

/-! ## What a step leaves in the result's buffer -/

/-- A first step's stores cover the result block. -/
theorem coverFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) (y : S2048x256.Idx) :
    ∃ pc ∈ (stepFirst c i a0 h0 a1 h1 a2 h2 a3 h3 hc1 hc2 x0 x1 x2).1, y ∈ pc.1.set :=
  View.cover_of_tiledL (stepFirst c i a0 h0 a1 h1 a2 h2 a3 h3 hc1 hc2 x0 x1 x2).1 S2048x256.size (by sl_kernel_rfl) y

/-- The block a first step leaves. -/
def leftFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) : Vec F S2048x256 .f32 :=
  VO.read (Elt F) (VO.writes (Elt F) VO.junk (stepFirst c i a0 h0 a1 h1 a2 h2 a3 h3 hc1 hc2 x0 x1 x2).1)

/-- A later step's stores cover the result block. -/
theorem coverLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) (y : S2048x256.Idx) :
    ∃ pc ∈ (stepLater c i a0 h0 a1 h1 a2 h2 a3 h3 hc1 hc2 x0 x1 x2 acc).1, y ∈ pc.1.set :=
  View.cover_of_tiledL (stepLater c i a0 h0 a1 h1 a2 h2 a3 h3 hc1 hc2 x0 x1 x2 acc).1 S2048x256.size (by sl_kernel_rfl) y

/-- The block a later step leaves. -/
def leftLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) : Vec F S2048x256 .f32 :=
  VO.read (Elt F) (VO.writes (Elt F) VO.junk (stepLater c i a0 h0 a1 h1 a2 h2 a3 h3 hc1 hc2 x0 x1 x2 acc).1)

/-! ## The result's buffer after each point -/

/-- The contents of the result's staging buffer after the body at position `n` of the walk: a first step's block
    when `n ≡ 0 (mod 4)`, else a later step's over the contents after `n - 1`. -/
def carried (c : Dev nD) : (n : ℕ) → n < cfg0.N → Vec F S2048x256 .f32
  | 0, hn =>
    leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩) (iblk m c 2 ⟨0, hn⟩)
  | n + 1, hn =>
    if h0 : (n + 1) % 4 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩) (iblk m c 2 ⟨n + 1, hn⟩)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (iblk m c 2 ⟨n + 1, hn⟩) (carried c n (Nat.lt_of_succ_lt hn))

/-- At the first point of an edge tile. -/
theorem carried_first (c : Dev nD) (t : Fin cfg0.N) (h0 : t.val % 4 = 0) :
    carried m c t.val t.isLt = leftFirst c (grid0.coords t) (ms0 t) (hs0 t) (ms1 t) (hs1 t) (ms2 t) (hs2 t) (ms3 t) (hs3 t)
      ((first_iff t).mpr h0) (fun h => (later_iff t).mp h h0) (iblk m c 0 t) (iblk m c 1 t) (iblk m c 2 t) := by
  obtain ⟨n, hn⟩ := t
  cases n with
  | zero => exact rfl
  | succ n => exact (dif_pos h0).trans rfl

/-- At a later point of an edge tile. -/
theorem carried_later (c : Dev nD) (t : Fin cfg0.N) (h0 : ¬t.val % 4 = 0) :
    carried m c t.val t.isLt = leftLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) (iblk m c 2 t)
      (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body at point `t` each input's buffer still at its
    block and the result's at `carried`; the invariant between points is only the scoped rest and the generator
    register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = carried m c t.val t.isLt := by dsimp only [dats]

/-- Each input's current staging buffer holds its block at every point, whether or not the point fetches it. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body stores into the result's buffer at every point: one of its two branches is always taken. -/
theorem live3 (i : grid0.Coords) : cfg0.idle 3 i = false := by
  show (!(k0_cond1 i == 1#1) && !(k0_cond2 i == 1#1)) = false
  unfold k0_cond1 k0_cond2
  generalize i 1 = j
  revert j; decide

/-- At a later point of an edge tile the result's current staging buffer holds what the point before left: the
    block index has not moved and the buffer was not written back in between. -/
theorem before_3_later (c : Dev nD) (t : Fin cfg0.N) (h0 : ¬t.val % 4 = 0) (d) :
    (dats m 0 c).before 3 t d = carried m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it owes of the result's buffer, as the obligation spells it (the buffer is never idle: `live3`). -/
def resultPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ resultPost m c t)

set_option maxHeartbeats 800000 in
/-- The body at any point: its inputs' buffers hold their blocks; the point is a first or a later step of its edge
    tile, and at a later one the result's buffer holds what the point before left; so the matching symbolic step
    applies. The invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost resultPost bodyAt0
  rw [live3]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 4 = 0
  · rw [carried_first m c t h0]
    unfold leftFirst
    iintro ⟨HΦ, Ho, ⟨%d0, H0⟩, ⟨%d1, H1⟩, ⟨%d2, H2⟩, ⟨%d3, H3⟩⟩
    iapply ((stepFirst c (grid0.coords t) _ _ _ _ _ _ _ _ ((first_iff t).mpr h0) (fun h => (later_iff t).mp h h0)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [carried_later m c t h0]
    simp only [before_3_later m c t h0]
    unfold leftLater
    iintro ⟨HΦ, Ho, ⟨%d0, H0⟩, ⟨%d1, H1⟩, ⟨%d2, H2⟩, ⟨%d3, H3⟩⟩
    iapply ((stepLater c (grid0.coords t) _ _ _ _ _ _ _ _ (fun h => h0 ((first_iff t).mp h)) ((later_iff t).mpr h0)
      (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault; every
    array of the pipeline ends at what the proof data computes and every other unscoped buffer as it was found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Pool

end
-- ==== Proof.Ideal.Steps.lean ====
/-
  One grid step of the pooling kernel `e_out = e_in + conEdᵀ · v_in`, on any whole staging buffers.

  The grid is (8, 4): point `t = 4·e + v` works on edge tile `e` (2048 rows of the result) and vertex tile `v`
  (1024 of the 4096 contracted rows). Every step forms the partial product of its [1024, 2048] tile of `conEd`
  (contracted over its rows) with rows `1024·v … 1024·v + 1023` of `v_in`. The step then either
    * is the FIRST of its edge tile (`v = 0`): the result block becomes `e_in`'s block plus the partial product, or
    * is a LATER one (`v ≠ 0`): the partial product is added to what the result block already holds.
  Exactly one of the two happens at each point; which one is decided over the 32 points in closed form
  (`first_iff`, `later_iff`). Each kind of step is run once, symbolically: the inputs' buffers are handed back as
  they were and the result's buffer ends with one store that covers it (`stepFirst`, `stepLater`).
-/
import proofs.«116933_j1529008357761_2_alg».proof.Proof.Gen.KernelIdeal.Frame
import proofs.«116933_j1529008357761_2_alg».proof.Proof.Gen.KernelIdeal.Skeleton

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of step a point is -/

/-- A point is the first of its edge tile exactly when its vertex coordinate is zero: `t ≡ 0 (mod 4)`. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- It is a later one exactly otherwise. -/
theorem later_iff : ∀ t : Fin cfg0.N, k0_cond2 (grid0.coords t) = 1#1 ↔ ¬t.val % 4 = 0 :=
  (by decide +kernel : ∀ t : Fin grid0.N, k0_cond2 (grid0.coords t) = 1#1 ↔ ¬t.val % 4 = 0)

/-! ## The two steps -/

set_option maxHeartbeats 1000000 in
/-- A FIRST step. With the `conEd` tile, all of `v_in` and the `e_in` block in their buffers and anything in the
    result's, the body runs to its end, hands the three inputs back unchanged and leaves the result's buffer with
    the listed stores written (one store, of the whole block). -/
noncomputable def stepFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) :
    { L : List (View.Piece (Elt F) S2048x256 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ (∃ d, owns (c : Thread nD τ) a3 fullShare d)
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__pool_kernel i a0 h0 a1 h1 a2 h2 a3 h3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%d3, %f3, -, H3⟩, Hk⟩
    obtain rfl := h0.eq_unread hf0; obtain rfl := h1.eq_unread hf1; obtain rfl := h2.eq_unread hf2
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

set_option maxHeartbeats 1000000 in
/-- A LATER step. The same, but the result's buffer holds the running block `acc`, which the body reads before it
    overwrites it. -/
noncomputable def stepLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) :
    { L : List (View.Piece (Elt F) S2048x256 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare acc
            ∗ (iprop(owns (c : Thread nD τ) a0 fullShare x0 ∗ owns (c : Thread nD τ) a1 fullShare x1 ∗ owns (c : Thread nD τ) a2 fullShare x2
                ∗ (∃ f, a3.view.loc (c : Thread nD τ) ↦[a3.view.set]{fullShare} a3.view.writes (Elt F) f L)) -∗ K ⟨⟩))
          ⊢ wp frame (wpE (defs₀ (F := F)) Variants.none c none) E (cc0__pool_kernel i a0 h0 a1 h1 a2 h2 a3 h3) K } := by
  refine ⟨?_, fun E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%f3, %hf3, H3⟩, Hk⟩
    obtain rfl := h0.eq_unread hf0; obtain rfl := h1.eq_unread hf1; obtain rfl := h2.eq_unread hf2; obtain rfl := h3.eq_unread hf3
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    iexists _; iexact H3

end Cert.KernelIdeal.Pool

end
-- ==== Proof.Ideal.Carry.lean ====
/-
  The pooling kernel `e_out = e_in + conEdᵀ · v_in`, point by point: what the result's staging buffer holds after
  each grid point, and from that the whole run.

  The grid is walked in order `t = 4·e + v`. The result window's block index is `(e, 0)`: it does not move while
  `v` runs through the four vertex tiles, so its staging buffer is carried from `t` to `t + 1` within an edge
  tile and written back only at `v = 3`. Hence the buffer's contents after point `t` are defined by recursion on
  `t` (`carried`): at `v = 0` what a first step leaves from the point's input blocks, at `v ≠ 0` what a later
  step leaves from the input blocks and the contents after `t - 1`. With this as the proof data of the pipeline,
  every point's body obligation is one of the two symbolic steps, and the launch theorem gives the run: it
  terminates, nothing faults, every array of the pipeline ends at what the proof data says and every other
  buffer as it was. In particular the five argument arrays are unchanged.
-/
import proofs.«116933_j1529008357761_2_alg».proof.Proof.Ideal.Steps

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers in use at a point -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .f32 := win0_3.stage (cfg0.slots t 3)
abbrev hs3 (t : Fin cfg0.N) : (ms3 t).IsWhole := hstage0_3 ((cfg0.slots t 3).cast nbuf0_3)

/-- A view of the result block's shape, through which a step's stores are read back as a block (any view of the
    shape gives the same block, the stores covering it). -/
abbrev VO : View sig .tc .vmem S2048x256 .f32 := (Memref.whole cc0_stg3_0 : Memref sig .tc .vmem S2048x256 .f32).view

/-! ## What a step leaves in the result's buffer -/

/-- A first step's stores cover the result block. -/
theorem coverFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) (y : S2048x256.Idx) :
    ∃ pc ∈ (stepFirst c i a0 h0 a1 h1 a2 h2 a3 h3 hc1 hc2 x0 x1 x2).1, y ∈ pc.1.set :=
  View.cover_of_tiledL (stepFirst c i a0 h0 a1 h1 a2 h2 a3 h3 hc1 hc2 x0 x1 x2).1 S2048x256.size (by sl_kernel_rfl) y

/-- The block a first step leaves. -/
def leftFirst (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) : Vec F S2048x256 .f32 :=
  VO.read (Elt F) (VO.writes (Elt F) VO.junk (stepFirst c i a0 h0 a1 h1 a2 h2 a3 h3 hc1 hc2 x0 x1 x2).1)

/-- A later step's stores cover the result block. -/
theorem coverLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) (y : S2048x256.Idx) :
    ∃ pc ∈ (stepLater c i a0 h0 a1 h1 a2 h2 a3 h3 hc1 hc2 x0 x1 x2 acc).1, y ∈ pc.1.set :=
  View.cover_of_tiledL (stepLater c i a0 h0 a1 h1 a2 h2 a3 h3 hc1 hc2 x0 x1 x2 acc).1 S2048x256.size (by sl_kernel_rfl) y

/-- The block a later step leaves. -/
def leftLater (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) : Vec F S2048x256 .f32 :=
  VO.read (Elt F) (VO.writes (Elt F) VO.junk (stepLater c i a0 h0 a1 h1 a2 h2 a3 h3 hc1 hc2 x0 x1 x2 acc).1)

/-! ## The result's buffer after each point -/

/-- The contents of the result's staging buffer after the body at position `n` of the walk: a first step's block
    when `n ≡ 0 (mod 4)`, else a later step's over the contents after `n - 1`. -/
def carried (c : Dev nD) : (n : ℕ) → n < cfg0.N → Vec F S2048x256 .f32
  | 0, hn =>
    leftFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩) (iblk m c 2 ⟨0, hn⟩)
  | n + 1, hn =>
    if h0 : (n + 1) % 4 = 0 then
      leftFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩) (iblk m c 2 ⟨n + 1, hn⟩)
    else
      leftLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (iblk m c 2 ⟨n + 1, hn⟩) (carried c n (Nat.lt_of_succ_lt hn))

/-- At the first point of an edge tile. -/
theorem carried_first (c : Dev nD) (t : Fin cfg0.N) (h0 : t.val % 4 = 0) :
    carried m c t.val t.isLt = leftFirst c (grid0.coords t) (ms0 t) (hs0 t) (ms1 t) (hs1 t) (ms2 t) (hs2 t) (ms3 t) (hs3 t)
      ((first_iff t).mpr h0) (fun h => (later_iff t).mp h h0) (iblk m c 0 t) (iblk m c 1 t) (iblk m c 2 t) := by
  obtain ⟨n, hn⟩ := t
  cases n with
  | zero => exact rfl
  | succ n => exact (dif_pos h0).trans rfl

/-- At a later point of an edge tile. -/
theorem carried_later (c : Dev nD) (t : Fin cfg0.N) (h0 : ¬t.val % 4 = 0) :
    carried m c t.val t.isLt = leftLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) (iblk m c 2 t)
      (carried m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- On core `c`: the arrays as the region finds them; after the body at point `t` each input's buffer still at its
    block and the result's at `carried`; the invariant between points is only the scoped rest and the generator
    register, which the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = carried m c t.val t.isLt := by dsimp only [dats]

/-- Each input's current staging buffer holds its block at every point, whether or not the point fetches it. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body stores into the result's buffer at every point: one of its two branches is always taken. -/
theorem live3 (i : grid0.Coords) : cfg0.idle 3 i = false := by
  show (!(k0_cond1 i == 1#1) && !(k0_cond2 i == 1#1)) = false
  unfold k0_cond1 k0_cond2
  generalize i 1 = j
  revert j; decide

/-- At a later point of an edge tile the result's current staging buffer holds what the point before left: the
    block index has not moved and the buffer was not written back in between. -/
theorem before_3_later (c : Dev nD) (t : Fin cfg0.N) (h0 : ¬t.val % 4 = 0) (d) :
    (dats m 0 c).before 3 t d = carried m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    live3 (fun _ _ => rfl)]
  dsimp only [dats]

/-! ## The body obligation -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it owes of the result's buffer, as the obligation spells it (the buffer is never idle: `live3`). -/
def resultPost (c : Dev nD) (t : Fin cfg0.N) : sProp 𝕄 :=
  match cfg0.idle 3 (cfg0.grid.coords t) with
  | true =>
    match (cfg0.win 3).flush t with
    | false => iprop(∃ d, owns (c : Thread nD τ) (ms3 t) fullShare ((dats m 0 c).before 3 t d))
    | true => owns (c : Thread nD τ) (ms3 t) fullShare ((dats m 0 c).after 3 t)
  | false => owns (c : Thread nD τ) (ms3 t) fullShare ((dats m 0 c).after 3 t)

/-- What it hands back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ resultPost m c t)

set_option maxHeartbeats 800000 in
/-- The body at any point: its inputs' buffers hold their blocks; the point is a first or a later step of its edge
    tile, and at a later one the result's buffer holds what the point before left; so the matching symbolic step
    applies. The invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost resultPost bodyAt0
  rw [live3]
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h0 : t.val % 4 = 0
  · rw [carried_first m c t h0]
    unfold leftFirst
    iintro ⟨HΦ, Ho, ⟨%d0, H0⟩, ⟨%d1, H1⟩, ⟨%d2, H2⟩, ⟨%d3, H3⟩⟩
    iapply ((stepFirst c (grid0.coords t) _ _ _ _ _ _ _ _ ((first_iff t).mpr h0) (fun h => (later_iff t).mp h h0)
      (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [carried_later m c t h0]
    simp only [before_3_later m c t h0]
    unfold leftLater
    iintro ⟨HΦ, Ho, ⟨%d0, H0⟩, ⟨%d1, H1⟩, ⟨%d2, H2⟩, ⟨%d3, H3⟩⟩
    iapply ((stepLater c (grid0.coords t) _ _ _ _ _ _ _ _ (fun h => h0 ((first_iff t).mp h)) ((later_iff t).mpr h0)
      (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault; every
    array of the pipeline ends at what the proof data computes and every other unscoped buffer as it was found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Pool

end
-- ==== Proof.PoolSum.lean ====
/-
  Pooling vertices onto edges, `e_out = e_in + conEdᵀ · v_in`, as arithmetic on extended reals.

  For an edge row `R` and a feature `d` the pooled value is
      e_in[R, d] + ∑ₖ conEd[k, R] · v_in[k, d],        k over the 4096 vertices.
  The vertices are taken in four consecutive runs of 1024: run `u` contributes
      ∑ⱼ conEd[1024·u + j, R] · v_in[1024·u + j, d],   j over 1024,
  and the value is built up as `((( e_in + run 0 ) + run 1 ) + run 2 ) + run 3`. Addition of extended reals is
  commutative and associative, and the four runs partition the vertices, so the built-up value IS the pooled
  value (`built_three`); nothing here needs the entries to be finite.
-/
import Idealize.ShloMosaic.PureOps.Ideal
import Idealize.ShloMosaic.Lib.ValueIdx

noncomputable section

namespace Cert.PoolSum

open Idealize.ShloMosaic Idealize.ShloMosaic.ValueIdx

/-- Vertex `j` of run `u`: `1024·u + j` (reduced mod 4096, so that it is a vertex for every `u`; for `u < 4`
    the reduction changes nothing). -/
def vtx (u : ℕ) (j : Fin 1024) : Fin 4096 := ⟨(1024 * u + j.val) % 4096, Nat.mod_lt _ (by decide)⟩

/-- Edge row `r` of edge tile `e`: `2048·e + r` (likewise reduced mod 16384). -/
def edge (e : ℕ) (r : Fin 2048) : Fin 16384 := ⟨(2048 * e + r.val) % 16384, Nat.mod_lt _ (by decide)⟩

theorem vtx_val (u : ℕ) (hu : u < 4) (j : Fin 1024) : (vtx u j).val = 1024 * u + j.val := by
  have := j.isLt
  show (1024 * u + j.val) % 4096 = _
  exact Nat.mod_eq_of_lt (by omega)

theorem edge_val (e : ℕ) (he : e < 8) (r : Fin 2048) : (edge e r).val = 2048 * e + r.val := by
  have := r.isLt
  show (2048 * e + r.val) % 16384 = _
  exact Nat.mod_eq_of_lt (by omega)

/-- The four runs partition the vertices: a sum over all of them is the sum of the four runs' sums. -/
theorem sum_runs {M : Type*} [AddCommMonoid M] (f : Fin 4096 → M) :
    ∑ k, f k = (∑ j, f (vtx 0 j)) + (∑ j, f (vtx 1 j)) + (∑ j, f (vtx 2 j)) + (∑ j, f (vtx 3 j)) := by
  have h1 : ∑ k, f k = ∑ p : Fin 4 × Fin 1024, f (vtx p.1.val p.2) :=
    (Fintype.sum_equiv (finProdFinEquiv (m := 4) (n := 1024)) (fun p => f (vtx p.1.val p.2)) f
      (fun p => congrArg f (Fin.ext (by
        rw [vtx_val _ p.1.isLt]
        show 1024 * p.1.val + p.2.val = p.2.val + 1024 * p.1.val
        omega)))).symm
  rw [h1, Fintype.sum_prod_type, Fin.sum_univ_four]
  rfl

variable (v : (⟨2, ![4096, 256]⟩ : Shape).Idx → EReal) (e : (⟨2, ![16384, 256]⟩ : Shape).Idx → EReal)
  (con : (⟨2, ![4096, 16384]⟩ : Shape).Idx → EReal)

/-- The pooled edges. -/
def pooled : (⟨2, ![16384, 256]⟩ : Shape).Idx → EReal :=
  fun i => e i + ∑ k : Fin 4096, con (ix2 k (i 0)) * v (ix2 k (i 1))

/-- Run `u`'s contribution at edge row `R`, feature `d`. -/
def run (u : ℕ) (R : Fin 16384) (d : Fin 256) : EReal :=
  ∑ j : Fin 1024, con (ix2 (vtx u j) R) * v (ix2 (vtx u j) d)

/-- The value as built up through run `u`, starting from `e_in`. -/
def built (R : Fin 16384) (d : Fin 256) : ℕ → EReal
  | 0 => e (ix2 R d) + run v con 0 R d
  | u + 1 => built R d u + run v con (u + 1) R d

/-- After the fourth run the built-up value is the pooled one. -/
theorem built_three (R : Fin 16384) (d : Fin 256) : built v e con R d 3 = pooled v e con (ix2 R d) := by
  show ((e (ix2 R d) + run v con 0 R d + run v con 1 R d) + run v con 2 R d) + run v con 3 R d
    = e (ix2 R d) + ∑ k : Fin 4096, con (ix2 k R) * v (ix2 k d)
  rw [sum_runs]
  simp only [run, add_assoc]

end Cert.PoolSum

end
-- ==== Proof.Ideal.Blocks.lean ====
/-
  The idealized pooling kernel's result array, read over the extended reals: it ends holding
  `e_in + conEdᵀ · v_in`.

  * One step, read as values. A first step leaves `e_in`'s block plus the partial product of the step's tile of
    `conEd` with its 1024 rows of `v_in`; a later step leaves what the result's buffer held plus that partial
    product. At an entry `(r, d)` of the block the partial product is `∑ⱼ tile[j, r] · rows[j, d]`, `j` over 1024:
    the matrix unit's product into a zero accumulator, and a change of float format is the identity.
  * The blocks a point reads, in the arrays. At point `t = 4·e + u` the `conEd` tile's entry `(j, r)` is
    `conEd[1024·u + j, 2048·e + r]`, row `j` of the 1024 rows read of `v_in` is row `1024·u + j`, and entry
    `(r, d)` of `e_in`'s block is `e_in[2048·e + r, d]`.
  * Hence, by induction along the walk, after point `t` the result's buffer holds at `(r, d)` the value built up
    through run `u` for edge row `2048·e + r` (`carried_apply`); at `u = 3`, where the block is written back, that
    is the pooled value. The eight written-back blocks tile the result array, so the array ends at the pooled
    edges (`final`, `run`).
-/
import proofs.«116933_j1529008357761_2_alg».proof.Proof.Ideal.Carry
import proofs.«116933_j1529008357761_2_alg».proof.Proof.PoolSum
import Idealize.ShloMosaic.Lib.Pipeline.Value
import Idealize.ShloMosaic.Lib.ValueIdx
import Idealize.ShloMosaic.PureOps.Ideal.Laws

set_option maxRecDepth 16384

noncomputable section

namespace Cert.KernelIdeal.Pool

open Cert.KernelIdeal Cert.KernelIdeal.Gen Cert.PoolSum
open Idealize.ShloMosaic Idealize.ShloMosaic.TcCoe Idealize.ShloMosaic.Tactic Idealize.SL.Sem
open Idealize.ShloMosaic.ValueIdx
open Idealize.ShloMosaic.Pipeline (Dat)

theorem hz : (![0, 0] : Fin 2 → Nat) = fun _ => 0 := funext fun a => by fin_cases a <;> rfl

/-! ## One step, as values -/

section AnyValues
variable {F : FTy → Type} [FloatOps F]

/-- The 1024 rows of `v_in` a step at coordinates `i` reads. -/
abbrev vrows (i : grid0.Coords) : Rect S4096x256 := Rect.unit (s := S4096x256) (k0_off1 i) S1024x256.size (k0_off1_inb i)

/-- A first step leaves the first branch's sum of the `e_in` block and the partial product. -/
theorem leftFirst_eq (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : k0_cond1 i = 1#1) (hc2 : ¬k0_cond2 i = 1#1)
    (x0 : Vec F S1024x2048 .f32) (x1 : Vec F S4096x256 .f32) (x2 : Vec F S2048x256 .f32) :
    leftFirst c i a0 h0 a1 h1 a2 h2 a3 h3 hc1 hc2 x0 x1 x2 = k0_pay2 (View.ld x1 (vrows i)) x0 x2 := by
  unfold leftFirst
  rw [View.read_writes_eq_canon _ _ _ (coverFirst c i a0 h0 a1 h1 a2 h2 a3 h3 hc1 hc2 x0 x1 x2)]
  unfold stepFirst
  dsimp only
  rw [View.canon_unit_zero hz]
  simp only [View.readAt_eq_ld, h0.read_unread, h1.read_unread, h2.read_unread, View.ld_unit_zero (S := S1024x2048) hz, View.ld_unit_zero (S := S2048x256) hz]

/-- A later step leaves the second branch's sum of the running block and the partial product. -/
theorem leftLater_eq (c : Dev nD) (i : grid0.Coords)
    (a0 : Memref sig .tc .vmem S1024x2048 .f32) (h0 : a0.IsWhole) (a1 : Memref sig .tc .vmem S4096x256 .f32) (h1 : a1.IsWhole)
    (a2 : Memref sig .tc .vmem S2048x256 .f32) (h2 : a2.IsWhole) (a3 : Memref sig .tc .vmem S2048x256 .f32) (h3 : a3.IsWhole)
    (hc1 : ¬k0_cond1 i = 1#1) (hc2 : k0_cond2 i = 1#1)
    (x0 : Vec F S1024x2048 .f32) (x1 : Vec F S4096x256 .f32) (x2 : Vec F S2048x256 .f32) (acc : Vec F S2048x256 .f32) :
    leftLater c i a0 h0 a1 h1 a2 h2 a3 h3 hc1 hc2 x0 x1 x2 acc = k0_pay3 (View.ld x1 (vrows i)) x0 acc := by
  unfold leftLater
  rw [View.read_writes_eq_canon _ _ _ (coverLater c i a0 h0 a1 h1 a2 h2 a3 h3 hc1 hc2 x0 x1 x2 acc)]
  unfold stepLater
  dsimp only
  rw [View.canon_unit_zero hz]
  simp only [View.readAt_eq_ld, h0.read_unread, h1.read_unread, h2.read_unread, h3.read_unread, View.ld_unit_zero (S := S1024x2048) hz, View.ld_unit_zero (S := S2048x256) hz]

end AnyValues

/-! ## The partial product at an entry -/

/-- The product's dimension numbers: both operands contracted over their rows. -/
abbrev tileDot : DotDims S1024x2048 S1024x256 S2048x256 := dot_S1024x2048_S1024x256_S2048x256_0_0_1_1_n_n

/-- On the tile's side the product's entry `(r, d)` reads column `r`; -/
theorem lhs_col (i : S2048x256.Idx) (q : tileDot.contr.Idx) : (tileDot.lhsIdx i q 1).val = (i 0).val := by
  unfold DotDims.lhsIdx
  rw [dif_neg (show ¬(1 : Fin S1024x2048.rank) ∈ tileDot.lhsBatch by decide), dif_pos (show (1 : Fin S1024x2048.rank) ∈ tileDot.lhsNonContracting by decide)]
  rfl
/-- on the rows' side, column `d`. -/
theorem rhs_col (i : S2048x256.Idx) (q : tileDot.contr.Idx) : (tileDot.rhsIdx i q 1).val = (i 1).val := by
  unfold DotDims.rhsIdx
  rw [dif_neg (show ¬(1 : Fin S1024x256.rank) ∈ tileDot.rhsBatch by decide), dif_pos (show (1 : Fin S1024x256.rank) ∈ tileDot.rhsNonContracting by decide)]
  rfl

/-- Column `r` of a [1024, 2048] tile against column `d` of 1024 rows, summed down the rows. -/
abbrev colDot (v3 : Vec Ideal S1024x256 .f32) (v4 : Vec Ideal S1024x2048 .f32) (r : Fin 2048) (d : Fin 256) : EReal :=
  ∑ j : Fin 1024, v4 (ix2 j r) * v3 (ix2 j d)

/-- The partial product at `(r, d)`: the tile's column `r` against the rows' column `d`, summed down the 1024 rows. -/
theorem partial_apply (v3 : Vec Ideal S1024x256 .f32) (v4 : Vec Ideal S1024x2048 .f32) (r : Fin 2048) (d : Fin 256) :
    k0_pay1 (F := Ideal) v3 v4 (ix2 r d) = colDot v3 v4 r d := by
  unfold k0_pay1
  simp only [matmul]
  rw [Ideal.matmul_constant_zero_apply, ← Equiv.sum_comp (contrEquiv1 tileDot 1024 rfl rfl).symm]
  refine Finset.sum_congr rfl fun k _ => ?_
  have hk := contrEquiv1_symm_val tileDot 1024 rfl rfl k
  have el : tileDot.lhsIdx (ix2 r d) ((contrEquiv1 tileDot 1024 rfl rfl).symm k) = ix2 k r := funext fun a => Fin.ext (by
    match a with
    | ⟨0, _⟩ => exact (tileDot.lhsIdx_val_of_single rfl _ _).trans hk
    | ⟨1, _⟩ => exact lhs_col _ _)
  have er : tileDot.rhsIdx (ix2 r d) ((contrEquiv1 tileDot 1024 rfl rfl).symm k) = ix2 k d := funext fun a => Fin.ext (by
    match a with
    | ⟨0, _⟩ => exact (tileDot.rhsIdx_val_of_single rfl _ _).trans hk
    | ⟨1, _⟩ => exact rhs_col _ _)
  rw [el, er]
  rfl

/-- A first step's entry: `e_in`'s plus the partial product's. -/
theorem first_apply (v3 : Vec Ideal S1024x256 .f32) (v4 : Vec Ideal S1024x2048 .f32) (v14 : Vec Ideal S2048x256 .f32) (r : Fin 2048) (d : Fin 256) :
    k0_pay2 (F := Ideal) v3 v4 v14 (ix2 r d) = v14 (ix2 r d) + colDot v3 v4 r d := by
  unfold k0_pay2
  show v14 (ix2 r d) + k0_pay1 (F := Ideal) v3 v4 (ix2 r d) = _
  rw [partial_apply]

/-- A later step's entry: the running block's plus the partial product's. -/
theorem later_apply (v3 : Vec Ideal S1024x256 .f32) (v4 : Vec Ideal S1024x2048 .f32) (v14 : Vec Ideal S2048x256 .f32) (r : Fin 2048) (d : Fin 256) :
    k0_pay3 (F := Ideal) v3 v4 v14 (ix2 r d) = v14 (ix2 r d) + colDot v3 v4 r d := by
  unfold k0_pay3
  rw [shapeCast_self]
  show v14 (ix2 r d) + k0_pay1 (F := Ideal) v3 v4 (ix2 r d) = _
  rw [partial_apply]

end Cert.KernelIdeal.Pool

/-! ## The blocks a point reads, in the arrays -/

namespace Cert.KernelIdeal.Pool

open Cert.KernelIdeal Cert.KernelIdeal.Gen Cert.PoolSum
open Idealize.ShloMosaic Idealize.ShloMosaic.TcCoe Idealize.ShloMosaic.Tactic Idealize.SL.Sem
open Idealize.ShloMosaic.ValueIdx
open Idealize.ShloMosaic.Pipeline (Dat)

/-- The printed index maps and the row offset, decided over the 32 points: at `t = 4·e + u` the `conEd` tile is
    block `(u, e)`, `v_in` is its one block, `e_in`'s and the result's blocks are `(e, 0)`, and the rows read of
    `v_in` start at `1024·u`. -/
theorem idx_facts : ∀ t : Fin cfg0.N,
    win0_0.index t (0 : Fin 2) = t.val % 4 ∧ win0_0.index t (1 : Fin 2) = t.val / 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ k0_off1 (grid0.coords t) (0 : Fin 2) = 1024 * (t.val % 4) ∧ k0_off1 (grid0.coords t) (1 : Fin 2) = 0 :=
  (by decide +kernel : ∀ t : Fin grid0.N, _)

section Reads
variable {F : FTy → Type} [FloatOps F]
variable (m : (ℓ : Loc nD τ sig) → Buf (Elt F) ℓ)

/-- Entry `(j, r)` of the `conEd` tile at point `t`. -/
theorem con_tile (c : Dev nD) (t : Fin cfg0.N) (j : Fin 1024) (r : Fin 2048) :
    (iblk m c 0 t : Vec F S1024x2048 .f32) (ix2 j r)
      = m ((c : Thread nD τ).loc main_arg4) (ix2 (vtx (t.val % 4) j) (edge (t.val / 4) r)) := by
  have hN : t.val < 32 := lt_of_lt_of_eq t.isLt (show cfg0.N = 32 from N_0)
  obtain ⟨e0, e1, -⟩ := idx_facts t
  unfold iblk
  rw [View.read_apply]
  show V m c main_arg4 _ = m ((c : Thread nD τ).loc main_arg4) _
  unfold V
  congr 1
  funext a
  apply Fin.ext
  match a with
  | ⟨0, _⟩ =>
    show win0_0.index t (0 : Fin 2) * 1024 + 1 * j.val = (vtx (t.val % 4) j).val
    rw [vtx_val _ (Nat.mod_lt _ (by decide)), e0]; omega
  | ⟨1, _⟩ =>
    show win0_0.index t (1 : Fin 2) * 2048 + 1 * r.val = (edge (t.val / 4) r).val
    rw [edge_val _ (by omega), e1]; omega

/-- Entry `(r, d)` of `e_in`'s block at point `t`. -/
theorem ein_block (c : Dev nD) (t : Fin cfg0.N) (r : Fin 2048) (d : Fin 256) :
    (iblk m c 2 t : Vec F S2048x256 .f32) (ix2 r d)
      = m ((c : Thread nD τ).loc main_arg1) (ix2 (edge (t.val / 4) r) d) := by
  have hN : t.val < 32 := lt_of_lt_of_eq t.isLt (show cfg0.N = 32 from N_0)
  obtain ⟨-, -, -, -, e4, e5, -⟩ := idx_facts t
  unfold iblk
  rw [View.read_apply]
  show V m c main_arg1 _ = m ((c : Thread nD τ).loc main_arg1) _
  unfold V
  congr 1
  funext a
  apply Fin.ext
  match a with
  | ⟨0, _⟩ =>
    show win0_2.index t (0 : Fin 2) * 2048 + 1 * r.val = (edge (t.val / 4) r).val
    rw [edge_val _ (by omega), e4]; omega
  | ⟨1, _⟩ =>
    show win0_2.index t (1 : Fin 2) * 256 + 1 * d.val = d.val
    rw [e5]; omega

/-- Entry `(j, d)` of the 1024 rows read of `v_in` at point `t`. -/
theorem vin_rows (c : Dev nD) (t : Fin cfg0.N) (j : Fin 1024) (d : Fin 256) :
    (View.ld (iblk m c 1 t : Vec F S4096x256 .f32) (vrows (grid0.coords t)) : Vec F S1024x256 .f32) (ix2 j d)
      = m ((c : Thread nD τ).loc main_arg0) (ix2 (vtx (t.val % 4) j) d) := by
  obtain ⟨-, -, e2, e3, -, -, -, -, e8, e9⟩ := idx_facts t
  show (iblk m c 1 t : Vec F S4096x256 .f32) ((vrows (grid0.coords t)).emb (ix2 j d)) = _
  unfold iblk
  rw [View.read_apply]
  show V m c main_arg0 _ = m ((c : Thread nD τ).loc main_arg0) _
  unfold V
  congr 1
  funext a
  apply Fin.ext
  match a with
  | ⟨0, _⟩ =>
    show win0_1.index t (0 : Fin 2) * 4096 + 1 * (k0_off1 (grid0.coords t) (0 : Fin 2) + 1 * j.val) = (vtx (t.val % 4) j).val
    rw [vtx_val _ (Nat.mod_lt _ (by decide)), e2, e8]; omega
  | ⟨1, _⟩ =>
    show win0_1.index t (1 : Fin 2) * 256 + 1 * (k0_off1 (grid0.coords t) (1 : Fin 2) + 1 * d.val) = d.val
    rw [e3, e9]; omega

end Reads

/-! ## The result's buffer along the walk -/

variable (m : (ℓ : Loc nD τ sig) → Buf (Elt Ideal) ℓ) (ρ : Dev nD → PrngReg)

/-- The three argument arrays the kernel reads, on core `c`. -/
abbrev aV (c : Dev nD) : S4096x256.Idx → EReal := m ((c : Thread nD τ).loc main_arg0)
abbrev aE (c : Dev nD) : S16384x256.Idx → EReal := m ((c : Thread nD τ).loc main_arg1)
abbrev aC (c : Dev nD) : S4096x16384.Idx → EReal := m ((c : Thread nD τ).loc main_arg4)

/-- The partial product of point `t` at `(r, d)` is run `t mod 4`'s contribution to edge row `2048·(t / 4) + r`. -/
theorem partial_run (c : Dev nD) (t : Fin cfg0.N) (r : Fin 2048) (d : Fin 256) :
    colDot (View.ld (iblk m c 1 t) (vrows (grid0.coords t))) (iblk m c 0 t) r d
      = Cert.PoolSum.run (aV m c) (aC m c) (t.val % 4) (edge (t.val / 4) r) d :=
  Finset.sum_congr rfl fun j _ => congrArg₂ (· * ·) (con_tile m c t j r) (vin_rows m c t j d)

/-- After point `t` the result's buffer holds, at `(r, d)`, the value built up through run `t mod 4` for edge row
    `2048·(t / 4) + r`. -/
theorem carried_apply (c : Dev nD) : ∀ (n : ℕ) (hn : n < cfg0.N) (r : Fin 2048) (d : Fin 256),
    carried m c n hn (ix2 r d) = built (aV m c) (aE m c) (aC m c) (edge (n / 4) r) d (n % 4) := by
  intro n
  induction n with
  | zero =>
    intro hn r d
    have e := carried_first m c ⟨0, hn⟩ rfl
    rw [show carried m c 0 hn = _ from e, leftFirst_eq]
    refine (first_apply _ _ _ r d).trans ?_
    show _ + _ = aE m c (ix2 (edge (0 / 4) r) d) + Cert.PoolSum.run (aV m c) (aC m c) 0 (edge (0 / 4) r) d
    exact congrArg₂ (· + ·) (ein_block m c ⟨0, hn⟩ r d) (partial_run m c ⟨0, hn⟩ r d)
  | succ n ih =>
    intro hn r d
    by_cases h0 : (n + 1) % 4 = 0
    · have e := carried_first m c ⟨n + 1, hn⟩ h0
      rw [show carried m c (n + 1) hn = _ from e, leftFirst_eq]
      refine (first_apply _ _ _ r d).trans ?_
      rw [h0]
      show _ + _ = aE m c (ix2 (edge ((n + 1) / 4) r) d) + Cert.PoolSum.run (aV m c) (aC m c) 0 (edge ((n + 1) / 4) r) d
      have hp := partial_run m c ⟨n + 1, hn⟩ r d
      rw [show (⟨n + 1, hn⟩ : Fin cfg0.N).val % 4 = 0 from h0] at hp
      exact congrArg₂ (· + ·) (ein_block m c ⟨n + 1, hn⟩ r d) hp
    · have e := carried_later m c ⟨n + 1, hn⟩ h0
      rw [show carried m c (n + 1) hn = _ from e, leftLater_eq]
      refine (later_apply _ _ _ r d).trans ?_
      obtain ⟨u, hu⟩ : ∃ u, (n + 1) % 4 = u + 1 := ⟨(n + 1) % 4 - 1, by omega⟩
      have hq : n / 4 = (n + 1) / 4 := by omega
      have hr : n % 4 = u := by omega
      have hp := partial_run m c ⟨n + 1, hn⟩ r d
      have hc := ih (Nat.lt_of_succ_lt hn) r d
      rw [hq, hr] at hc
      rw [show (⟨n + 1, hn⟩ : Fin cfg0.N).val % 4 = u + 1 from hu] at hp
      rw [hu]
      show _ + _ = built (aV m c) (aE m c) (aC m c) (edge ((n + 1) / 4) r) d u + Cert.PoolSum.run (aV m c) (aC m c) (u + 1) (edge ((n + 1) / 4) r) d
      exact congrArg₂ (· + ·) hc hp

/-! ## The result array -/

/-- The pooled edges of core `c`'s argument arrays, as contents of the result array. -/
abbrev poolOf (c : Dev nD) : Buf (Elt Ideal) ((c : Thread nD τ).loc main_v0) := pooled (aV m c) (aE m c) (aC m c)

/-- What a point writes back — it does so at the last vertex tile of its edge tile — is its block of the pooled
    edges. -/
theorem flushed_eq (c : Dev nD) (t : Fin cfg0.N) (hf : (cfg0.win 3).flush t = true) :
    (dats m 0 c).flushed 3 t = ((cfg0.win 3).blk t).view.read (Elt Ideal) (poolOf m c) := by
  have hN : t.val < 32 := lt_of_lt_of_eq t.isLt (show cfg0.N = 32 from N_0)
  have h3 : t.val % 4 = 3 := (flush0_3 t).mp hf
  obtain ⟨-, -, -, -, -, -, e6, e7, -⟩ := idx_facts t
  show (cfg0.win 3).cut (grid0.coords t) ((dats m 0 c).after 3 t) = _
  rw [after_3]
  funext y
  obtain ⟨r, d, rfl⟩ : ∃ (r : Fin 2048) (d : Fin 256), y = ix2 r d := ⟨y 0, y 1, eq_ix2 y⟩
  show carried m c t.val t.isLt (ix2 r d) = poolOf m c (((cfg0.win 3).blk t).view.emb (ix2 r d))
  rw [carried_apply, h3, built_three]
  show pooled (aV m c) (aE m c) (aC m c) _ = pooled (aV m c) (aE m c) (aC m c) _
  congr 1
  funext a
  apply Fin.ext
  match a with
  | ⟨0, _⟩ =>
    show (edge (t.val / 4) r).val = win0_3.index t (0 : Fin 2) * 2048 + 1 * r.val
    rw [edge_val _ (by omega), e6]; omega
  | ⟨1, _⟩ =>
    show d.val = win0_3.index t (1 : Fin 2) * 256 + 1 * d.val
    rw [e7]; omega

/-- An index of the result array is in point `t`'s block iff each coordinate is in the block's range. -/
theorem mem_blk (t : Fin cfg0.N) (i : S16384x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v0).slice (win0_3.rect t)).set ↔ _
  rw [View.set_slice_whole, Rect.mem_set_unit]
  exact Iff.rfl

/-- Every index of the result array lies in a block that is written back: row `R` in that of the last point of
    edge tile `R / 2048`. -/
theorem covered (i : S16384x256.Idx) : ∃ t : Fin cfg0.N, (cfg0.win 3).flush t = true ∧ i ∈ ((cfg0.win 3).blk t).view.set := by
  have hi0 : (i 0).val < 16384 := (i 0).isLt
  have hi1 : (i 1).val < 256 := (i 1).isLt
  have hlt : 4 * ((i 0).val / 2048) + 3 < cfg0.N := by rw [show cfg0.N = 32 from N_0]; omega
  refine ⟨⟨4 * ((i 0).val / 2048) + 3, hlt⟩, (flush0_3 _).mpr (by dsimp only; omega), ?_⟩
  obtain ⟨-, -, -, -, -, -, e6, e7, -⟩ := idx_facts ⟨4 * ((i 0).val / 2048) + 3, hlt⟩
  dsimp only at e6 e7
  rw [mem_blk]
  intro a
  match a with
  | ⟨0, _⟩ =>
    show win0_3.index ⟨4 * ((i 0).val / 2048) + 3, hlt⟩ (0 : Fin 2) * 2048 ≤ (i 0).val ∧ (i 0).val < win0_3.index ⟨4 * ((i 0).val / 2048) + 3, hlt⟩ (0 : Fin 2) * 2048 + 2048
    rw [e6]; omega
  | ⟨1, _⟩ =>
    show win0_3.index ⟨4 * ((i 0).val / 2048) + 3, hlt⟩ (1 : Fin 2) * 256 ≤ (i 1).val ∧ (i 1).val < win0_3.index ⟨4 * ((i 0).val / 2048) + 3, hlt⟩ (1 : Fin 2) * 256 + 256
    rw [e7]; omega

/-- So the result array ends at the pooled edges. -/
theorem final (c : Dev nD) : (dats m 0 c).arrAt 3 cfg0.N = poolOf m c :=
  (dats m 0 c).arrAt_eq_of_cover 3 (poolOf m c) (flushed_eq m c) covered

/-- The run, read: the result array at the pooled edges of the argument arrays, the arguments unchanged. -/
theorem run : θ_run defs (onTc (τ := τ) (main (F := Ideal))) ⟨m, fun _ => 0, ρ⟩ fun r => ∀ c : Dev nD,
      r.2.mem ((c.tc : Thread nD τ).loc main_v0) = poolOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 3).trans (final m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 0).trans (((dats m 0 c).arrAt_in 0 rfl _).trans ((A_eq m c 0).trans (V_main_arg4 m c)))⟩)
    (run_main m ρ)

end Cert.KernelIdeal.Pool

end
-- ==== Proof.RefSum.lean ====
/-
  The reference `e_in + einsum('ve,vd->ed', conEd, v_in)`, read over the extended reals, is the pooled edges:
  at an entry `(R, d)` the host's `dot_general` (both operands contracted over the 4096 vertices) is
  `∑ₖ conEd[k, R] · v_in[k, d]`, and the host's `add` puts `e_in[R, d]` in front of it.
-/
import proofs.«116933_j1529008357761_2_alg».proof.Proof.Gen.ReferenceIdeal.Read
import proofs.«116933_j1529008357761_2_alg».proof.Proof.PoolSum

noncomputable section

namespace Cert.ReferenceIdeal.Pool

open Cert.ReferenceIdeal Cert.ReferenceIdeal.Gen Cert.ReferenceIdeal.Read Cert.PoolSum
open Idealize.ShloMosaic Idealize.ShloMosaic.ValueIdx

/-- The reference's last stage — the sum of `e_in` and the contraction — is the pooled edges of its three operands. -/
theorem ref_pooled (x0 : (⟨S4096x256, .f32⟩ : BufTy).Contents (Elt Ideal)) (x1 : (⟨S16384x256, .f32⟩ : BufTy).Contents (Elt Ideal))
    (x4 : (⟨S4096x16384, .f32⟩ : BufTy).Contents (Elt Ideal)) :
    val_main_v1 (F := Ideal) x0 x1 x4 = pooled x0 x1 x4 := by
  funext i
  rw [val_main_v1_apply, val_main_v0_apply]
  show x1 i + _ = x1 i + _
  refine congrArg (x1 i + ·) (Finset.sum_congr rfl fun k _ => ?_)
  have el : lidx_main_v0 i k = ix2 k (i 0) := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

end Cert.ReferenceIdeal.Pool

end
-- ==== Proof.lean ====
/-
  The certificate of the pooling kernel `e_out = e_in + conEdᵀ · v_in` against its `jnp` reference.

  The kernel walks an (8, 4) grid: for each of 8 tiles of 2048 edges it runs through 4 tiles of 1024 vertices,
  adding each tile's partial product `conEd_tileᵀ · v_in_rows` into the edge tile's result block, which starts from
  `e_in`'s block and is written back after the fourth. The reference adds `e_in` to one contraction over all 4096
  vertices. Over the extended reals the two are the same function of the arguments: the kernel's block entry is
  `(((e_in + run 0) + run 1) + run 2) + run 3`, the four runs partition the vertices, and addition of extended reals
  is commutative and associative (Proof/PoolSum.lean) — the inputs' finiteness is not used.

  Each program's frame (it terminates, nothing faults, its arguments end unchanged): for the kernel and for its
  idealization, from the run of the pipeline with the result block carried between the points of an edge tile
  (Proof/Bits/Carry.lean, Proof/Ideal/Carry.lean, over the two kinds of step of Proof/…/Steps.lean); for the
  reference, from its straight-line run. The idealization rewrote nothing. The two results are equal because the
  kernel's result array ends at the pooled edges (Proof/Ideal/Blocks.lean) and so does the reference's
  (Proof/RefSum.lean).
-/
import proofs.«116933_j1529008357761_2_alg».proof.Defs
import proofs.«116933_j1529008357761_2_alg».proof.Proof.Gen.Kernel
import proofs.«116933_j1529008357761_2_alg».proof.Proof.Gen.KernelIdeal
import proofs.«116933_j1529008357761_2_alg».proof.Proof.Gen.ReferenceIdeal
import proofs.«116933_j1529008357761_2_alg».proof.Proof.Gen.ReferenceIdeal.Run
import proofs.«116933_j1529008357761_2_alg».proof.Proof.Gen.ReferenceIdeal.Read
import proofs.«116933_j1529008357761_2_alg».proof.Proof.Gen.Pre_finite_inputs
import proofs.«116933_j1529008357761_2_alg».proof.Proof.Bits.Carry
import proofs.«116933_j1529008357761_2_alg».proof.Proof.Ideal.Carry
import proofs.«116933_j1529008357761_2_alg».proof.Proof.Ideal.Blocks
import proofs.«116933_j1529008357761_2_alg».proof.Proof.RefSum

noncomputable section

namespace Cert.Proof

open Idealize.ShloMosaic Idealize.SL.Sem

/-- The kernel runs and leaves its arguments unchanged. -/
theorem frame_k : Cert.frame_Kernel := fun m ρ _ => Cert.Kernel.Pool.frame m ρ

/-- So does its idealization. -/
theorem frame_ki : Cert.frame_KernelIdeal := fun m ρ _ => Cert.KernelIdeal.Pool.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the idealized kernel's result array and the reference's both end at the pooled
    edges of those arguments. -/
theorem algebraic : Cert.algebraic_KernelIdeal_ReferenceIdeal := by
  intro m ρ m' ρ' _ hagree
  refine ⟨fun c => Cert.KernelIdeal.Pool.poolOf m c, Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.2.2]
  exact (Cert.ReferenceIdeal.Read.val_main_v1_eq _ _ _).trans (Cert.ReferenceIdeal.Pool.ref_pooled _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
